-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16384x2048 : Shape := ⟨3, ![2, 16384, 2048]⟩
abbrev S1x16384 : Shape := ⟨2, ![1, 16384]⟩
abbrev S64 : Shape := ⟨1, ![64]⟩
abbrev S_ : Shape := ⟨0, ![]⟩

class Facts : Prop where
  bcast_S_S2x16384x2048 : S_.BroadcastsInDim S2x16384x2048 (![] : Fin 0 → Fin S2x16384x2048.rank)
  reducesTo_S2x16384x2048_S_d0_1_2 : S2x16384x2048.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S2x16384x2048 .f32) (main_arg1 : IVec S1x16384 32) (main_arg2 : FVec F S64 .f32) (main_arg3 : FVec F S64 .f32) : IVec S_ 1 :=
  let main_v0 : FVec F S2x16384x2048 .f32 := Host.absf main_arg0
  let main_cst : FVec F S_ .f32 := constant S_ .f32 0x7F800000#32
  let main_v1 : FVec F S2x16384x2048 .f32 := broadcastInDim S2x16384x2048 ![] bcast_S_S2x16384x2048 main_cst
  let main_v2 : IVec S2x16384x2048 1 := cmpf .olt main_v0 main_v1
  let main_c : IVec S_ 1 := constantI S_ 1 1#1
  let main_v3 : IVec S_ 1 := (fun x v => Host.reduce IntOp.andi x v reducesTo_S2x16384x2048_S_d0_1_2 h_S_) main_v2 main_c
  let main_v4 : FVec F S64 .f32 := Host.absf main_arg2
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S2x16384x2048 : Shape := ⟨3, ![2, 16384, 2048]⟩
abbrev S1x16384 : Shape := ⟨2, ![1, 16384]⟩
abbrev S64 : Shape := ⟨1, ![64]⟩
abbrev S16384 : Shape := ⟨1, ![16384]⟩
abbrev S16384x1 : Shape := ⟨2, ![16384, 1]⟩
abbrev S1x64 : Shape := ⟨2, ![1, 64]⟩
abbrev S_ : Shape := ⟨0, ![]⟩
abbrev S16384x64 : Shape := ⟨2, ![16384, 64]⟩
abbrev S16384x64x1 : Shape := ⟨3, ![16384, 64, 1]⟩
abbrev S1 : Shape := ⟨1, ![1]⟩
abbrev S1x1x1 : Shape := ⟨3, ![1, 1, 1]⟩
abbrev S16384x128 : Shape := ⟨2, ![16384, 128]⟩
abbrev S2048x64 : Shape := ⟨2, ![2048, 64]⟩
abbrev S2048x128 : Shape := ⟨2, ![2048, 128]⟩
abbrev S1x16384x128 : Shape := ⟨3, ![1, 16384, 128]⟩

abbrev nBuf : Space → Nat
  | .hbm => 60
  | .vmem => 7
  | .smem => 0
  | _ => 0

abbrev bufTy : (tb : Table) → Fin (tcTables nBuf tb) → BufTy
  | .hbm, ⟨0, _⟩ => ⟨S2x16384x2048, .f32⟩
  | .hbm, ⟨1, _⟩ => ⟨S1x16384, .i32⟩
  | .hbm, ⟨2, _⟩ => ⟨S64, .f32⟩
  | .hbm, ⟨3, _⟩ => ⟨S64, .f32⟩
  | .hbm, ⟨4, _⟩ => ⟨S64, .i32⟩
  | .hbm, ⟨5, _⟩ => ⟨S16384, .i32⟩
  | .hbm, ⟨6, _⟩ => ⟨S16384x1, .i32⟩
  | .hbm, ⟨7, _⟩ => ⟨S1x64, .i32⟩
  | .hbm, ⟨8, _⟩ => ⟨S_, .i32⟩
  | .hbm, ⟨9, _⟩ => ⟨S1x64, .i32⟩
  | .hbm, ⟨10, _⟩ => ⟨S1x64, .i1⟩
  | .hbm, ⟨11, _⟩ => ⟨S_, .i32⟩
  | .hbm, ⟨12, _⟩ => ⟨S1x64, .i32⟩
  | .hbm, ⟨13, _⟩ => ⟨S1x64, .i32⟩
  | .hbm, ⟨14, _⟩ => ⟨S16384x64, .i32⟩
  | .hbm, ⟨15, _⟩ => ⟨S16384x64, .i32⟩
  | .hbm, ⟨16, _⟩ => ⟨S16384x64, .i32⟩
  | .hbm, ⟨17, _⟩ => ⟨S_, .i32⟩
  | .hbm, ⟨18, _⟩ => ⟨S16384x64, .i32⟩
  | .hbm, ⟨19, _⟩ => ⟨S16384x64, .i1⟩
  | .hbm, ⟨20, _⟩ => ⟨S_, .i32⟩
  | .hbm, ⟨21, _⟩ => ⟨S16384x64, .i32⟩
  | .hbm, ⟨22, _⟩ => ⟨S16384x64, .i1⟩
  | .hbm, ⟨23, _⟩ => ⟨S_, .i32⟩
  | .hbm, ⟨24, _⟩ => ⟨S1x64, .i32⟩
  | .hbm, ⟨25, _⟩ => ⟨S1x64, .i1⟩
  | .hbm, ⟨26, _⟩ => ⟨S16384x64, .i1⟩
  | .hbm, ⟨27, _⟩ => ⟨S16384x64, .i1⟩
  | .hbm, ⟨28, _⟩ => ⟨S16384x64, .i1⟩
  | .hbm, ⟨29, _⟩ => ⟨S16384x64, .i32⟩
  | .hbm, ⟨30, _⟩ => ⟨S16384x64, .i32⟩
  | .hbm, ⟨31, _⟩ => ⟨S16384x64, .i32⟩
  | .hbm, ⟨32, _⟩ => ⟨S16384, .i32⟩
  | .hbm, ⟨33, _⟩ => ⟨S_, .i32⟩
  | .hbm, ⟨34, _⟩ => ⟨S16384x64, .i32⟩
  | .hbm, ⟨35, _⟩ => ⟨S16384x64, .i1⟩
  | .hbm, ⟨36, _⟩ => ⟨S_, .i32⟩
  | .hbm, ⟨37, _⟩ => ⟨S16384x64, .i32⟩
  | .hbm, ⟨38, _⟩ => ⟨S16384x64, .i32⟩
  | .hbm, ⟨39, _⟩ => ⟨S16384x64, .i32⟩
  | .hbm, ⟨40, _⟩ => ⟨S16384x64x1, .i32⟩
  | .hbm, ⟨41, _⟩ => ⟨S1, .i32⟩
  | .hbm, ⟨42, _⟩ => ⟨S_, .i32⟩
  | .hbm, ⟨43, _⟩ => ⟨S16384x64x1, .i32⟩
  | .hbm, ⟨44, _⟩ => ⟨S16384x64x1, .i1⟩
  | .hbm, ⟨45, _⟩ => ⟨S1x1x1, .i32⟩
  | .hbm, ⟨46, _⟩ => ⟨S16384x64x1, .i32⟩
  | .hbm, ⟨47, _⟩ => ⟨S16384x64x1, .i1⟩
  | .hbm, ⟨48, _⟩ => ⟨S16384x64x1, .i1⟩
  | .hbm, ⟨49, _⟩ => ⟨S_, .i1⟩
  | .hbm, ⟨50, _⟩ => ⟨S16384x64, .i1⟩
  | .hbm, ⟨51, _⟩ => ⟨S16384x64, .i32⟩
  | .hbm, ⟨52, _⟩ => ⟨S_, .i32⟩
  | .hbm, ⟨53, _⟩ => ⟨S16384x64, .i32⟩
  | .hbm, ⟨54, _⟩ => ⟨S16384x64, .i32⟩
  | .hbm, ⟨55, _⟩ => ⟨S16384x64, .f32⟩
  | .hbm, ⟨56, _⟩ => ⟨S16384x128, .f32⟩
  | .hbm, ⟨57, _⟩ => ⟨S16384x128, .f32⟩
  | .hbm, ⟨58, _⟩ => ⟨S1x16384x128, .f32⟩
  | .hbm, ⟨59, _⟩ => ⟨S1x16384x128, .f32⟩
  | .local _ .vmem, ⟨0, _⟩ => ⟨S2048x64, .f32⟩
  | .local _ .vmem, ⟨1, _⟩ => ⟨S2048x64, .f32⟩
  | .local _ .vmem, ⟨2, _⟩ => ⟨S64, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_c_1 : Ref sig .tc := ⟨.hbm, 17, rfl⟩
abbrev main_call0_v7 : Ref sig .tc := ⟨.hbm, 18, rfl⟩
abbrev main_call0_v8 : Ref sig .tc := ⟨.hbm, 19, rfl⟩
abbrev main_call0_c_2 : Ref sig .tc := ⟨.hbm, 20, rfl⟩
abbrev main_call0_v9 : Ref sig .tc := ⟨.hbm, 21, rfl⟩
abbrev main_call0_v10 : Ref sig .tc := ⟨.hbm, 22, rfl⟩
abbrev main_call0_c_3 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_call0_v17 : Ref sig .tc := ⟨.hbm, 30, rfl⟩
abbrev main_v4 : Ref sig .tc := ⟨.hbm, 31, rfl⟩
abbrev main_v5 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_c_4 : Ref sig .tc := ⟨.hbm, 52, rfl⟩
abbrev main_call1_v14 : Ref sig .tc := ⟨.hbm, 53, rfl⟩
abbrev main_v6 : Ref sig .tc := ⟨.hbm, 54, rfl⟩
abbrev main_v7 : Ref sig .tc := ⟨.hbm, 55, rfl⟩
abbrev main_v8_0 : Ref sig .tc := ⟨.hbm, 56, rfl⟩
abbrev main_v8_1 : Ref sig .tc := ⟨.hbm, 57, rfl⟩
abbrev main_v9 : Ref sig .tc := ⟨.hbm, 58, rfl⟩
abbrev main_v10 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S16384_S16384x1_0 : S16384.BroadcastsInDim S16384x1 (![0] : Fin 1 → Fin S16384x1.rank)
  bcast_S64_S1x64_1 : S64.BroadcastsInDim S1x64 (![1] : Fin 1 → Fin S1x64.rank)
  bcast_S_S1x64 : S_.BroadcastsInDim S1x64 (![] : Fin 0 → Fin S1x64.rank)
  bcast_S16384x1_S16384x64_0_1 : S16384x1.BroadcastsInDim S16384x64 (![0, 1] : Fin 2 → Fin S16384x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  shapeCasts_S1x16384_S16384 : S1x16384.ShapeCasts S16384
  bcast_S16384x64_S16384x64x1_0_1 : S16384x64.BroadcastsInDim S16384x64x1 (![0, 1] : Fin 2 → Fin S16384x64x1.rank)
  bcast_S_S16384x64x1 : S_.BroadcastsInDim S16384x64x1 (![] : Fin 0 → Fin S16384x64x1.rank)
  bcast_S1_S1x1x1_2 : S1.BroadcastsInDim S1x1x1 (![2] : Fin 1 → Fin S1x1x1.rank)
  bcast_S1x1x1_S16384x64x1_0_1_2 : S1x1x1.BroadcastsInDim S16384x64x1 (![0, 1, 2] : Fin 3 → Fin S16384x64x1.rank)
  reducesTo_S16384x64x1_S16384x64_d2 : S16384x64x1.ReducesTo [2] S16384x64
  h_S_ : 0 < S_.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  concatenates_S2048x64_S2048x64_S2048x128_d1 : Shape.Concatenates [S2048x64, S2048x64] S2048x128 1
  inb_S2048x128_S2048x128_0_0 : ∀ a, (![0, 0] : Fin 2 → Nat) a + S2048x128.size a ≤ S2048x128.size a
  h_S2048x128 : 0 < S2048x128.numel
  bcast_S16384x128_S1x16384x128_1_2 : S16384x128.BroadcastsInDim S1x16384x128 (![1, 2] : Fin 2 → Fin S1x16384x128.rank)
  gather_S16384_S16384x64x1_S16384x64_n_0_n_n_0_2_1_wf : GatherDims.WF S16384 S16384x64x1 S16384x64 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .f32 = 32 ∨ (Rect.block (s := S16384x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64.size a ≤ S64.size a
  hwx0_1 : ∀ i : grid0.Coords, EltTy.bits .f32 = 32 ∨ (Rect.block (s := S64) S64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .f32 = 32 ∨ (Rect.block (s := S16384x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S16384x128.size a
  hwx0_3 : ∀ i : grid0.Coords, EltTy.bits .f32 = 32 ∨ (Rect.block (s := S16384x128) S2048x128.size (cc0_transform_3 i) (hinb0_3 i)).WholeWords (EltTy.packing .f32)

variable [Facts₀]

def gather_S16384_S16384x64x1_S16384x64_n_0_n_n_0_2_1 : GatherDims S16384 S16384x64x1 S16384x64 where
  offsetDims := []
  collapsedSliceDims := [0]
  operandBatchingDims := []
  startIndicesBatchingDims := []
  startIndexMap := [0]
  indexVectorDim := 2
  sliceSizes := ![1]
  wf := gather_S16384_S16384x64x1_S16384x64_n_0_n_n_0_2_1_wf

abbrev win0_0 : Pipeline.Window sig grid0 :=
  Pipeline.Window.ofSpec (Memref.whole main_v7) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8_0) S2048x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_1) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x16384x2048 : Shape := ⟨3, ![2, 16384, 2048]⟩
abbrev S1x16384 : Shape := ⟨2, ![1, 16384]⟩
abbrev S64 : Shape := ⟨1, ![64]⟩
abbrev S16384 : Shape := ⟨1, ![16384]⟩
abbrev S16384x1 : Shape := ⟨2, ![16384, 1]⟩
abbrev S1x64 : Shape := ⟨2, ![1, 64]⟩
abbrev S_ : Shape := ⟨0, ![]⟩
abbrev S16384x64 : Shape := ⟨2, ![16384, 64]⟩
abbrev S16384x64x1 : Shape := ⟨3, ![16384, 64, 1]⟩
abbrev S1 : Shape := ⟨1, ![1]⟩
abbrev S1x1x1 : Shape := ⟨3, ![1, 1, 1]⟩
abbrev S1x16384x64 : Shape := ⟨3, ![1, 16384, 64]⟩
abbrev S1x1x64 : Shape := ⟨3, ![1, 1, 64]⟩
abbrev S1x16384x128 : Shape := ⟨3, ![1, 16384, 128]⟩

abbrev nBuf : Space → Nat
  | .hbm => 68
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S1x16384, .i32⟩
  | .hbm, ⟨2, _⟩ => ⟨S64, .f32⟩
  | .hbm, ⟨3, _⟩ => ⟨S64, .f32⟩
  | .hbm, ⟨4, _⟩ => ⟨S64, .i32⟩
  | .hbm, ⟨5, _⟩ => ⟨S16384, .i32⟩
  | .hbm, ⟨6, _⟩ => ⟨S16384x1, .i32⟩
  | .hbm, ⟨7, _⟩ => ⟨S1x64, .i32⟩
  | .hbm, ⟨8, _⟩ => ⟨S_, .i32⟩
  | .hbm, ⟨9, _⟩ => ⟨S1x64, .i32⟩
  | .hbm, ⟨10, _⟩ => ⟨S1x64, .i1⟩
  | .hbm, ⟨11, _⟩ => ⟨S_, .i32⟩
  | .hbm, ⟨12, _⟩ => ⟨S1x64, .i32⟩
  | .hbm, ⟨13, _⟩ => ⟨S1x64, .i32⟩
  | .hbm, ⟨14, _⟩ => ⟨S16384x64, .i32⟩
  | .hbm, ⟨15, _⟩ => ⟨S16384x64, .i32⟩
  | .hbm, ⟨16, _⟩ => ⟨S16384x64, .i32⟩
  | .hbm, ⟨17, _⟩ => ⟨S_, .i32⟩
  | .hbm, ⟨18, _⟩ => ⟨S16384x64, .i32⟩
  | .hbm, ⟨19, _⟩ => ⟨S16384x64, .i1⟩
  | .hbm, ⟨20, _⟩ => ⟨S_, .i32⟩
  | .hbm, ⟨21, _⟩ => ⟨S16384x64, .i32⟩
  | .hbm, ⟨22, _⟩ => ⟨S16384x64, .i1⟩
  | .hbm, ⟨23, _⟩ => ⟨S_, .i32⟩
  | .hbm, ⟨24, _⟩ => ⟨S1x64, .i32⟩
  | .hbm, ⟨25, _⟩ => ⟨S1x64, .i1⟩
  | .hbm, ⟨26, _⟩ => ⟨S16384x64, .i1⟩
  | .hbm, ⟨27, _⟩ => ⟨S16384x64, .i1⟩
  | .hbm, ⟨28, _⟩ => ⟨S16384x64, .i1⟩
  | .hbm, ⟨29, _⟩ => ⟨S16384x64, .i32⟩
  | .hbm, ⟨30, _⟩ => ⟨S16384x64, .i32⟩
  | .hbm, ⟨31, _⟩ => ⟨S16384x64, .i32⟩
  | .hbm, ⟨32, _⟩ => ⟨S_, .i32⟩
  | .hbm, ⟨33, _⟩ => ⟨S16384x64, .i32⟩
  | .hbm, ⟨34, _⟩ => ⟨S16384x64, .i1⟩
  | .hbm, ⟨35, _⟩ => ⟨S_, .i32⟩
  | .hbm, ⟨36, _⟩ => ⟨S16384x64, .i32⟩
  | .hbm, ⟨37, _⟩ => ⟨S16384x64, .i32⟩
  | .hbm, ⟨38, _⟩ => ⟨S16384x64, .i32⟩
  | .hbm, ⟨39, _⟩ => ⟨S16384x64x1, .i32⟩
  | .hbm, ⟨40, _⟩ => ⟨S1, .i32⟩
  | .hbm, ⟨41, _⟩ => ⟨S_, .i32⟩
  | .hbm, ⟨42, _⟩ => ⟨S16384x64x1, .i32⟩
  | .hbm, ⟨43, _⟩ => ⟨S16384x64x1, .i1⟩
  | .hbm, ⟨44, _⟩ => ⟨S1x1x1, .i32⟩
  | .hbm, ⟨45, _⟩ => ⟨S16384x64x1, .i32⟩
  | .hbm, ⟨46, _⟩ => ⟨S16384x64x1, .i1⟩
  | .hbm, ⟨47, _⟩ => ⟨S16384x64x1, .i1⟩
  | .hbm, ⟨48, _⟩ => ⟨S_, .i1⟩
  | .hbm, ⟨49, _⟩ => ⟨S16384x64, .i1⟩
  | .hbm, ⟨50, _⟩ => ⟨S1x16384x64, .i32⟩
  | .hbm, ⟨51, _⟩ => ⟨S1x16384x64, .i1⟩
  | .hbm, ⟨52, _⟩ => ⟨S_, .i32⟩
  | .hbm, ⟨53, _⟩ => ⟨S1x16384x64, .i32⟩
  | .hbm, ⟨54, _⟩ => ⟨S1x16384x64, .i32⟩
  | .hbm, ⟨55, _⟩ => ⟨S1x16384x64, .f32⟩
  | .hbm, ⟨56, _⟩ => ⟨S1x1x64, .f32⟩
  | .hbm, ⟨57, _⟩ => ⟨S1x16384x64, .f32⟩
  | .hbm, ⟨58, _⟩ => ⟨S1x16384x64, .f32⟩
  | .hbm, ⟨59, _⟩ => ⟨S1x16384x128, .f32⟩
  | .hbm, ⟨60, _⟩ => ⟨S1x16384x128, .f32⟩
  | .hbm, ⟨61, _⟩ => ⟨S_, .f32⟩
  | .hbm, ⟨62, _⟩ => ⟨S1x16384x128, .f32⟩
  | .hbm, ⟨63, _⟩ => ⟨S1x16384x128, .f32⟩
  | .hbm, ⟨64, _⟩ => ⟨S1x16384x128, .f32⟩
  | .hbm, ⟨65, _⟩ => ⟨S_, .f32⟩
  | .hbm, ⟨66, _⟩ => ⟨S1x16384x128, .f32⟩
  | .hbm, ⟨67, _⟩ => ⟨S1x16384x128, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_c_1 : Ref sig .tc := ⟨.hbm, 17, rfl⟩
abbrev main_call0_v7 : Ref sig .tc := ⟨.hbm, 18, rfl⟩
abbrev main_call0_v8 : Ref sig .tc := ⟨.hbm, 19, rfl⟩
abbrev main_call0_c_2 : Ref sig .tc := ⟨.hbm, 20, rfl⟩
abbrev main_call0_v9 : Ref sig .tc := ⟨.hbm, 21, rfl⟩
abbrev main_call0_v10 : Ref sig .tc := ⟨.hbm, 22, rfl⟩
abbrev main_call0_c_3 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_call0_v17 : Ref sig .tc := ⟨.hbm, 30, rfl⟩
abbrev main_v4 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_c_4 : Ref sig .tc := ⟨.hbm, 52, rfl⟩
abbrev main_call1_v15 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_cst : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_cst_0 : Ref sig .tc := ⟨.hbm, 65, rfl⟩
abbrev main_v15 : Ref sig .tc := ⟨.hbm, 66, rfl⟩
abbrev main_v16 : Ref sig .tc := ⟨.hbm, 67, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S64_S1x64_1 : S64.BroadcastsInDim S1x64 (![1] : Fin 1 → Fin S1x64.rank)
  bcast_S_S1x64 : S_.BroadcastsInDim S1x64 (![] : Fin 0 → Fin S1x64.rank)
  bcast_S16384x1_S16384x64_0_1 : S16384x1.BroadcastsInDim S16384x64 (![0, 1] : Fin 2 → Fin S16384x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S16384x64_S16384x64x1_0_1 : S16384x64.BroadcastsInDim S16384x64x1 (![0, 1] : Fin 2 → Fin S16384x64x1.rank)
  bcast_S_S16384x64x1 : S_.BroadcastsInDim S16384x64x1 (![] : Fin 0 → Fin S16384x64x1.rank)
  bcast_S1_S1x1x1_2 : S1.BroadcastsInDim S1x1x1 (![2] : Fin 1 → Fin S1x1x1.rank)
  bcast_S1x1x1_S16384x64x1_0_1_2 : S1x1x1.BroadcastsInDim S16384x64x1 (![0, 1, 2] : Fin 3 → Fin S16384x64x1.rank)
  reducesTo_S16384x64x1_S16384x64_d2 : S16384x64x1.ReducesTo [2] S16384x64
  h_S_ : 0 < S_.numel
  bcast_S16384x64_S1x16384x64_1_2 : S16384x64.BroadcastsInDim S1x16384x64 (![1, 2] : Fin 2 → Fin S1x16384x64.rank)
  bcast_S_S1x16384x64 : S_.BroadcastsInDim S1x16384x64 (![] : Fin 0 → Fin S1x16384x64.rank)
  bcast_S64_S1x1x64_2 : S64.BroadcastsInDim S1x1x64 (![2] : Fin 1 → Fin S1x1x64.rank)
  bcast_S1x1x64_S1x16384x64_0_1_2 : S1x1x64.BroadcastsInDim S1x16384x64 (![0, 1, 2] : Fin 3 → Fin S1x16384x64.rank)
  concatenates_S1x16384x64_S1x16384x64_S1x16384x128_d2 : Shape.Concatenates [S1x16384x64, S1x16384x64] S1x16384x128 2
  bcast_S_S1x16384x128 : S_.BroadcastsInDim S1x16384x128 (![] : Fin 0 → Fin S1x16384x128.rank)
  gather_S1x16384_S16384x64x1_S1x16384x64_0_1_n_n_1_2_11_wf : GatherDims.WF S1x16384 S16384x64x1 S1x16384x64 [0] [1] [] [1] [] 2 ![1, 1]

variable [Facts₀]

def gather_S1x16384_S16384x64x1_S1x16384x64_0_1_n_n_1_2_11 : GatherDims S1x16384 S16384x64x1 S1x16384x64 where
  offsetDims := [0]
  collapsedSliceDims := [1]
  operandBatchingDims := []
  startIndicesBatchingDims := []
  startIndexMap := [1]
  indexVectorDim := 2
  sliceSizes := ![1, 1]
  wf := gather_S1x16384_S16384x64x1_S1x16384x64_0_1_n_n_1_2_11_wf

class Facts : Prop extends Facts₀ where

variable [Facts]
-- ==== Proof.LibTakeAxis1.lean ====
/-
  `stablehlo.gather` along axis 1 of a one-row table, read at an index.

  What `jnp.take(p, idx, axis=1)` of a table `p : [1, N]` at an integer array `idx : [R, C]` lowers to: a gather with
  offset_dims `[0]`, collapsed_slice_dims `[1]`, start_index_map `[1]`, slice_sizes `[1, 1]` and index_vector_dim 2 over
  the indices as `[R, C, 1]`, into `[1, R, C]`. Result element `(z, r, c)` is the table's row 0 at the start index
  `idx[r, c, 0]` read as a signed integer and clamped into `[0, N − 1]` — the rank-1 lookup of Lib/ValueIdx.lean
  (`gather_take_apply`) with a leading unit axis carried along.
-/
import Idealize.ShloMosaic.PureOps.Ideal
import Idealize.ShloMosaic.Lib.ValueIdx

noncomputable section

namespace Cert.Lib.TakeAxis1

open Idealize.ShloMosaic Idealize.ShloMosaic.ValueIdx

variable {α : Type}

/-- Those dimension numbers for a table `[1, N]`, start indices `[R, C, 1]` and result `[1, R, C]`. -/
abbrev takeAxis1Dims (N R C : Nat)
    (wf : GatherDims.WF ⟨2, ![1, N]⟩ ⟨3, ![R, C, 1]⟩ ⟨3, ![1, R, C]⟩ [0] [1] [] [1] [] 2 ![1, 1]) :
    GatherDims ⟨2, ![1, N]⟩ ⟨3, ![R, C, 1]⟩ ⟨3, ![1, R, C]⟩ where
  offsetDims := [0]
  collapsedSliceDims := [1]
  operandBatchingDims := []
  startIndicesBatchingDims := []
  startIndexMap := [1]
  indexVectorDim := 2
  sliceSizes := ![1, 1]
  wf := wf

/-- The start-indices index `[r, c, 0]` of result index `(z, r, c)`. -/
abbrev startIdx {R C : Nat} (y : (⟨3, ![1, R, C]⟩ : Shape).Idx) : (⟨3, ![R, C, 1]⟩ : Shape).Idx :=
  fun a => match a with | ⟨0, _⟩ => ⟨(y 1).val, (y 1).isLt⟩ | ⟨1, _⟩ => ⟨(y 2).val, (y 2).isLt⟩ | ⟨2, _⟩ => ⟨0, Nat.one_pos⟩

/-- THE LOOKUP READ AT `(z, r, c)`: row 0 of the table at the start index `idx[r, c, 0]`, read signed and clamped into
    `[0, N − 1]`. -/
theorem gather_axis1_apply {N R C w : Nat} (hN : 0 < N)
    (wf : GatherDims.WF ⟨2, ![1, N]⟩ ⟨3, ![R, C, 1]⟩ ⟨3, ![1, R, C]⟩ [0] [1] [] [1] [] 2 ![1, 1])
    (x : (⟨2, ![1, N]⟩ : Shape).Idx → α) (idx : IVec ⟨3, ![R, C, 1]⟩ w) (y : (⟨3, ![1, R, C]⟩ : Shape).Idx) :
    Host.gather (takeAxis1Dims N R C wf) x idx y
      = x (ix2 (⟨0, Nat.one_pos⟩ : Fin 1) (⟨min (idx (startIdx y)).toInt.toNat (N - 1), by omega⟩ : Fin N)) := by
  unfold Host.gather
  congr 1
  funext a
  refine Fin.ext ?_
  show (takeAxis1Dims N R C wf).start y idx a + (takeAxis1Dims N R C wf).batchCoord y a + (takeAxis1Dims N R C wf).offCoord y a = _
  rw [GatherDims.batchCoord_eq_zero _ _ _ List.not_mem_nil, Nat.add_zero]
  match a with
  | ⟨0, h0⟩ =>
    have hne : (⟨0, h0⟩ : Fin (⟨2, ![1, N]⟩ : Shape).rank) ∉ ([1] : List (Fin (⟨2, ![1, N]⟩ : Shape).rank)) := by
      intro h
      have e := congrArg Fin.val (List.mem_singleton.mp h)
      change (0 : Nat) = 1 at e
      omega
    have hs : (takeAxis1Dims N R C wf).start y idx ⟨0, h0⟩ = 0 := by
      unfold GatherDims.start
      rw [dif_neg hne]
    have ho : (takeAxis1Dims N R C wf).offCoord y ⟨0, h0⟩ < 1 :=
      (takeAxis1Dims N R C wf).offCoord_lt y ⟨0, h0⟩
        (((takeAxis1Dims N R C wf).mem_sKept _).2 ⟨hne, List.not_mem_nil⟩)
    rw [hs]
    show 0 + _ = 0
    omega
  | ⟨1, h1⟩ =>
    rw [GatherDims.offCoord_eq_zero _ y ⟨1, h1⟩ (fun h => (((takeAxis1Dims N R C wf).mem_sKept _).mp h).1 (List.mem_singleton.mpr rfl)),
      Nat.add_zero]
    unfold GatherDims.start
    rw [dif_pos (show (⟨1, h1⟩ : Fin 2) ∈ (takeAxis1Dims N R C wf).startIndexMap from List.mem_singleton.mpr rfl)]
    have hsi : (takeAxis1Dims N R C wf).siIdx y ⟨List.idxOf (⟨1, h1⟩ : Fin 2) (takeAxis1Dims N R C wf).startIndexMap,
        List.idxOf_lt_length_iff.2 (List.mem_singleton.mpr rfl)⟩ = startIdx y := by
      funext b; refine Fin.ext ?_
      match b with
      | ⟨0, _⟩ => rfl
      | ⟨1, _⟩ => rfl
      | ⟨2, _⟩ => rfl
    rw [hsi]
    rfl

end Cert.Lib.TakeAxis1

end
-- ==== Proof.Spec.lean ====
/-
  The mathematics both programs compute, written once.

  From the wavelengths `w` (64 floats, read as integers) and the position table `p` (one row of 16384 integers):
  row `l`, frequency `k` looks up position `l mod w_k` (the sign-corrected remainder, an index wrapped once from below,
  the lookup clamped into the table and masked to the least integer where the wrapped index falls outside it),
  converts it to a float and multiplies by the inverse frequency `f_k`; the 64 angles of a row are laid out twice side by
  side, and the results are `cos` and `sin` of the 128 angles, each times one constant.

  `wrapIdx`, `takeStart`, `takeMask` are the integer part, shared verbatim by the two programs. They differ only in the
  lookup's layout — the kernel's program flattens the table and gathers along its one axis into rows `[16384, 64]`
  (`posRows`), the reference gathers along axis 1 of the `[1, 16384]` table into `[1, 16384, 64]` (`posRef`) — and in where
  the trigonometry happens: block by block in the kernel (`kerTrig`, the array the blocks add up to), on the whole
  `[1, 16384, 128]` array in the reference (`refTrig`).
-/
import proofs.«123444_j67980742361244_1_alg».proof.Proof.Gen.ReferenceIdeal
import Idealize.ShloMosaic.PureOps.Ideal
import Idealize.ShloMosaic.Lib.ValueIdx
import proofs.«123444_j67980742361244_1_alg».proof.Proof.LibTakeAxis1

noncomputable section

namespace Cert.Rope

open Idealize.ShloMosaic Idealize.ShloMosaic.ValueIdx
open Cert.ReferenceIdeal Cert.ReferenceIdeal.Gen Cert.Lib.TakeAxis1

abbrev S16384x128 : Shape := ⟨2, ![16384, 128]⟩

theorem shapeCasts_S1x16384_S16384 : S1x16384.ShapeCasts S16384 := by decide
theorem bcast_S16384x128_S1x16384x128_1_2 :
    S16384x128.BroadcastsInDim S1x16384x128 (![1, 2] : Fin 2 → Fin S1x16384x128.rank) := by decide
theorem takeRows_wf : GatherDims.WF S16384 S16384x64x1 S16384x64 [] [0] [] [0] [] 2 ![1] := by decide

variable {F : FTy → Type} [FloatOps F]

/-- `l mod w_k` for every row `l` and frequency `k`: the wavelengths converted to integers, a zero wavelength replaced
    by one, the truncated remainder of the row number, and one wavelength added back where the remainder is nonzero
    and its sign differs from the wavelength's. -/
def wrapIdx (a3 : FVec F S64 .f32) : IVec S16384x64 32 :=
  have w0 : IVec S64 32 := fptosi 32 a3
  have i1 : IVec S16384 32 := iotaInDim S16384 32 0
  have i2 : IVec S16384x1 32 := broadcastInDim S16384x1 ![0] bcast_S16384_S16384x1_0 i1
  have w3 : IVec S1x64 32 := broadcastInDim S1x64 ![1] bcast_S64_S1x64_1 w0
  have r0 : IVec S1x64 32 := broadcastInDim S1x64 ![] bcast_S_S1x64 (constantI S_ 32 0#32)
  have r1 : IVec S1x64 1 := cmpi .eq w3 r0
  have r2 : IVec S1x64 32 := broadcastInDim S1x64 ![] bcast_S_S1x64 (constantI S_ 32 1#32)
  have r3 : IVec S1x64 32 := select r1 r2 w3
  have r4 : IVec S16384x64 32 := broadcastInDim S16384x64 ![0, 1] bcast_S16384x1_S16384x64_0_1 i2
  have r5 : IVec S16384x64 32 := broadcastInDim S16384x64 ![0, 1] bcast_S1x64_S16384x64_0_1 r3
  have r6 : IVec S16384x64 32 := Host.remsi r4 r5
  have r7 : IVec S16384x64 32 := broadcastInDim S16384x64 ![] bcast_S_S16384x64 (constantI S_ 32 0#32)
  have r8 : IVec S16384x64 1 := cmpi .ne r6 r7
  have r9 : IVec S16384x64 32 := broadcastInDim S16384x64 ![] bcast_S_S16384x64 (constantI S_ 32 0#32)
  have r10 : IVec S16384x64 1 := cmpi .slt r6 r9
  have r11 : IVec S1x64 32 := broadcastInDim S1x64 ![] bcast_S_S1x64 (constantI S_ 32 0#32)
  have r12 : IVec S1x64 1 := cmpi .slt r3 r11
  have r13 : IVec S16384x64 1 := broadcastInDim S16384x64 ![0, 1] bcast_S1x64_S16384x64_0_1 r12
  have r14 : IVec S16384x64 1 := cmpi .ne r10 r13
  have r15 : IVec S16384x64 1 := andi r14 r8
  have r16 : IVec S16384x64 32 := broadcastInDim S16384x64 ![0, 1] bcast_S1x64_S16384x64_0_1 r3
  have r17 : IVec S16384x64 32 := addi r6 r16
  select r15 r17 r6

/-- The lookup's start indices: a negative index wrapped once by the table's length, as a column of one-component
    index vectors. -/
def takeStart (idx : IVec S16384x64 32) : IVec S16384x64x1 32 :=
  have t0 : IVec S16384x64 32 := broadcastInDim S16384x64 ![] bcast_S_S16384x64 (constantI S_ 32 0#32)
  have t1 : IVec S16384x64 1 := cmpi .slt idx t0
  have t2 : IVec S16384x64 32 := broadcastInDim S16384x64 ![] bcast_S_S16384x64 (constantI S_ 32 16384#32)
  have t3 : IVec S16384x64 32 := addi idx t2
  have t4 : IVec S16384x64 32 := select t1 t3 idx
  broadcastInDim S16384x64x1 ![0, 1] bcast_S16384x64_S16384x64x1_0_1 t4

/-- Which start indices lie inside the table (`0 ≤ · ≤ 16383`, every component). -/
def takeMask (st : IVec S16384x64x1 32) : IVec S16384x64 1 :=
  have t6 : IVec S16384x64x1 32 := broadcastInDim S16384x64x1 ![] bcast_S_S16384x64x1 (constantI S_ 32 0#32)
  have t7 : IVec S16384x64x1 1 := cmpi .sge st t6
  have t8 : IVec S1x1x1 32 := broadcastInDim S1x1x1 ![2] bcast_S1_S1x1x1_2 (constantI S1 32 16383#32)
  have t9 : IVec S16384x64x1 32 := broadcastInDim S16384x64x1 ![0, 1, 2] bcast_S1x1x1_S16384x64x1_0_1_2 t8
  have t10 : IVec S16384x64x1 1 := cmpi .sle st t9
  have t11 : IVec S16384x64x1 1 := andi t7 t10
  Host.reduce IntOp.andi t11 (constantI S_ 1 1#1) reducesTo_S16384x64x1_S16384x64_d2 h_S_

/-- The looked-up positions as floats, as the kernel's program lays them out: `[16384, 64]`, the table flattened
    first. -/
def posRows (a1 : IVec S1x16384 32) (a3 : FVec F S64 .f32) : FVec F S16384x64 .f32 :=
  sitofp .f32 (select (takeMask (takeStart (wrapIdx a3)))
    (Host.gather (takeDims 16384 16384 64 takeRows_wf) (shapeCast S16384 a1 shapeCasts_S1x16384_S16384) (takeStart (wrapIdx a3)))
    (broadcastInDim S16384x64 ![] bcast_S_S16384x64 (constantI S_ 32 2147483648#32)))

/-- The same positions as the reference lays them out: `[1, 16384, 64]`. -/
def posRef (a1 : IVec S1x16384 32) (a3 : FVec F S64 .f32) : FVec F S1x16384x64 .f32 :=
  sitofp .f32 (select (broadcastInDim S1x16384x64 ![1, 2] bcast_S16384x64_S1x16384x64_1_2 (takeMask (takeStart (wrapIdx a3))))
    (Host.gather (takeAxis1Dims 16384 16384 64 gather_S1x16384_S16384x64x1_S1x16384x64_0_1_n_n_1_2_11_wf) a1 (takeStart (wrapIdx a3)))
    (broadcastInDim S1x16384x64 ![] bcast_S_S1x16384x64 (constantI S_ 32 2147483648#32)))

/-- The reference's 64 angles per row: position times inverse frequency. -/
def refAngles (a1 : IVec S1x16384 32) (a2 a3 : FVec F S64 .f32) : FVec F S1x16384x64 .f32 :=
  mulf (posRef a1 a3)
    (broadcastInDim S1x16384x64 ![0, 1, 2] bcast_S1x1x64_S1x16384x64_0_1_2 (broadcastInDim S1x1x64 ![2] bcast_S64_S1x1x64_2 a2))

/-- The reference's result for a host trigonometric function `g`: `g` of the doubled angles, times the constant. -/
def refTrig (g : FVec F S1x16384x128 .f32 → FVec F S1x16384x128 .f32)
    (a1 : IVec S1x16384 32) (a2 a3 : FVec F S64 .f32) : FVec F S1x16384x128 .f32 :=
  mulf (g (concatenate S1x16384x128 2 [⟨S1x16384x64, refAngles a1 a2 a3⟩, ⟨S1x16384x64, refAngles a1 a2 a3⟩]
      concatenates_S1x16384x64_S1x16384x64_S1x16384x128_d2))
    (broadcastInDim S1x16384x128 ![] bcast_S_S1x16384x128 (constant S_ .f32 0x3F91BE9C#32))

/-- What the kernel's blocks add up to, for a scalar trigonometric function `g` on the extended reals: at row `l`,
    column `c`, `g` of (position `(l, c mod 64)` times inverse frequency `c mod 64`), times the constant. -/
def kerTrig (g : EReal → EReal) (x : FVec Ideal S16384x64 .f32) (a2 : FVec Ideal S64 .f32) : FVec Ideal S16384x128 .f32 :=
  fun i => g (x (ix2 ⟨(i 0).val, idx2_lt0 i⟩ ⟨(i 1).val % 64, Nat.mod_lt _ (by norm_num)⟩)
      * a2 (ix1 ⟨(i 1).val % 64, Nat.mod_lt _ (by norm_num)⟩)) * Ideal.ofBits .f32 0x3F91BE9C#32

end Cert.Rope

end
-- ==== Proof.KernelBlocks.lean ====
/-
  The kernel's two output tables as whole arrays. The grid has eight points; point `t` reads rows
  `2048 t … 2048 t + 2047` of the positions (all 64 columns) and the 64 inverse frequencies, forms the angles
  `position × inverse frequency`, lays the 64 columns out twice side by side, and writes `cos` and `sin` of the 128
  columns, times one constant, to the same rows of the two tables. So the stored value at `(r, q)` of a block only
  depends on column `q mod 64` of row `r` (`angle_apply`), each point writes back a block of ONE function of the table's
  index (`Cert.Rope.kerTrig`), and the eight blocks tile the table.
-/
import proofs.«123444_j67980742361244_1_alg».proof.Proof.Gen.KernelIdeal.Frame
import proofs.«123444_j67980742361244_1_alg».proof.Proof.Spec
import Idealize.ShloMosaic.Lib.Pipeline.Value
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The angle at row `r`, column `q` of a block: the position at `(r, q mod 64)` times inverse frequency `q mod 64` —
    the left copy for `q < 64`, the right copy for `q ≥ 64`. -/
theorem angle_apply (x0 : Vec Ideal S2048x64 .f32) (x1 : Vec Ideal S64 .f32) (r : Fin 2048) (q : Fin 128) :
    k0_pay1 x0 x1 (ix2 r q)
      = x0 (ix2 r ⟨q.val % 64, Nat.mod_lt _ (by norm_num)⟩) * x1 (ix1 ⟨q.val % 64, Nat.mod_lt _ (by norm_num)⟩) := by
  have hq : q.val < 128 := q.isLt
  -- one angle, at a column below 64
  have one : ∀ k : Fin 64, mulf (F := Ideal) (φ := .f32) (shapeCast S2048x64 x0 shapeCasts_S2048x64_S2048x64 : FVec Ideal S2048x64 .f32)
        (broadcastTo S2048x64 (shapeCast S1x64 x1 shapeCasts_S64_S1x64 : FVec Ideal S1x64 .f32) broadcasts_S1x64_S2048x64 : FVec Ideal S2048x64 .f32) (ix2 r k)
      = x0 (ix2 r k) * x1 (ix1 k) := by
    intro k
    show (shapeCast S2048x64 x0 shapeCasts_S2048x64_S2048x64 : FVec Ideal S2048x64 .f32) (ix2 r k)
      * (broadcastTo S2048x64 (shapeCast S1x64 x1 shapeCasts_S64_S1x64 : FVec Ideal S1x64 .f32) broadcasts_S1x64_S2048x64 : FVec Ideal S2048x64 .f32) (ix2 r k) = _
    rw [shapeCast_self, broadcastTo_apply _ _ (ix2 r k) (ix2 (0 : Fin 1) k) (fun a => by
      match a with
      | ⟨0, _⟩ => rfl
      | ⟨1, _⟩ => rfl), shapeCast_a_1a_apply]
  unfold k0_pay1
  by_cases hc : q.val < 64
  · refine (concatenate_pair_apply_left (s₁ := S2048x64) (s₂ := S2048x64) (1 : Fin 2) _ _ _ (ix2 r q) rfl (ix2 r (⟨q.val, hc⟩ : Fin 64) : S2048x64.Idx) (fun b => by
      match b with
      | ⟨0, _⟩ => rfl
      | ⟨1, _⟩ => rfl)).trans ?_
    rw [one]
    have e : (⟨q.val, hc⟩ : Fin 64) = ⟨q.val % 64, Nat.mod_lt _ (by norm_num)⟩ := Fin.ext (Nat.mod_eq_of_lt hc).symm
    rw [e]
  · have hc' : q.val - 64 < 64 := by omega
    refine (concatenate_pair_apply_right (s₁ := S2048x64) (s₂ := S2048x64) (1 : Fin 2) _ _ _ (ix2 r q) rfl rfl (ix2 r (⟨q.val - 64, hc'⟩ : Fin 64) : S2048x64.Idx) (fun b hb => by
      match b with
      | ⟨0, _⟩ => rfl
      | ⟨1, _⟩ => exact absurd rfl hb) (by show q.val - 64 + 64 = q.val; omega)).trans ?_
    rw [one]
    have e : (⟨q.val - 64, hc'⟩ : Fin 64) = ⟨q.val % 64, Nat.mod_lt _ (by norm_num)⟩ := Fin.ext (by show q.val - 64 = q.val % 64; omega)
    rw [e]

/-- The printed index maps, decided over the grid: the positions' block moves with both output blocks down the rows, and
    no window moves along the columns. -/
theorem idx_facts : ∀ t : Fin cfg0.N, win0_0.index t (0 : Fin 2) = win0_2.index t (0 : Fin 2)
    ∧ win0_0.index t (0 : Fin 2) = win0_3.index t (0 : Fin 2)
    ∧ win0_0.index t (1 : Fin 2) = 0 ∧ win0_2.index t (1 : Fin 2) = 0 ∧ win0_3.index t (1 : Fin 2) = 0
    ∧ win0_1.index t (0 : Fin 1) = 0 :=
  (by decide +kernel : ∀ t : Fin grid0.N, _)

/-- Every block row of the table is some point's, for each output window. -/
theorem idx_onto2 : ∀ (q0 : Fin 8), ∃ t : Fin cfg0.N, win0_2.index t = ![q0.val, 0] :=
  (by decide +kernel : ∀ (q0 : Fin 8), ∃ t : Fin grid0.N, win0_2.index t = ![q0.val, 0])
theorem idx_onto3 : ∀ (q0 : Fin 8), ∃ t : Fin cfg0.N, win0_3.index t = ![q0.val, 0] :=
  (by decide +kernel : ∀ (q0 : Fin 8), ∃ t : Fin grid0.N, win0_3.index t = ![q0.val, 0])

/-! ## Output window 2: the cosines -/

/-- The stored value at row `r`, column `q` of a block: `cos` of the angle there, times the constant. -/
theorem pay2_apply (x0 : Vec Ideal S2048x64 .f32) (x1 : Vec Ideal S64 .f32) (r : Fin 2048) (q : Fin 128) :
    k0_pay2 x0 x1 (ix2 r q)
      = Ideal.cos (x0 (ix2 r ⟨q.val % 64, Nat.mod_lt _ (by norm_num)⟩) * x1 (ix1 ⟨q.val % 64, Nat.mod_lt _ (by norm_num)⟩))
          * Ideal.ofBits .f32 0x3F91BE9C#32 := by
  rw [← angle_apply x0 x1 r q]
  rfl

/-- WHAT POINT `t` WRITES BACK is block `t` of the whole table: rows `2048 t … 2048 t + 2047` of the positions go in,
    the same rows of the table come out. -/
theorem flushed2_eq (c : Dev nD) (t : Fin cfg0.N) :
    (dats m 0 c).flushed 2 t
      = ((cfg0.win 2).blk t).view.read (Elt Ideal) (Cert.Rope.kerTrig Ideal.cos (V m c main_v7) (V m c main_arg2)) := by
  show (cfg0.win 2).cut (grid0.coords t) ((dats m 0 c).after 2 t) = _
  rw [after0_2]
  unfold out0_2
  rw [View.canon_unit_zero hz2]
  simp only [View.ld_unit_zero (S := S2048x64) hz2, View.ld_unit_zero (S := S64) hz1]
  obtain ⟨e0, e1, e2, e3, e4, e5⟩ := idx_facts t
  funext j
  obtain ⟨r, q, rfl⟩ : ∃ (r : Fin 2048) (q : Fin 128), j = ix2 r q := ⟨j 0, j 1, eq_ix2 j⟩
  show k0_pay2 (iblk m c 0 t) (iblk m c 1 t) (ix2 r q)
    = Cert.Rope.kerTrig Ideal.cos (V m c main_v7) (V m c main_arg2) (((cfg0.win 2).blk t).view.emb (ix2 r q))
  refine (pay2_apply (iblk m c 0 t) (iblk m c 1 t) r q).trans ?_
  have hq : q.val < 128 := q.isLt
  have hr : r.val < 2048 := r.isLt
  have h0 : iblk m c 0 t (ix2 r ⟨q.val % 64, Nat.mod_lt _ (by norm_num)⟩)
      = V m c main_v7 (ix2 ⟨((((cfg0.win 2).blk t).view.emb (ix2 r q)) 0).val, idx2_lt0 _⟩
          ⟨((((cfg0.win 2).blk t).view.emb (ix2 r q)) 1).val % 64, Nat.mod_lt _ (by norm_num)⟩) := by
    show V m c main_v7 (((cfg0.win 0).blk t).view.emb (ix2 r ⟨q.val % 64, Nat.mod_lt _ (by norm_num)⟩)) = _
    refine congrArg (V m c main_v7) (funext fun a => Fin.ext ?_)
    match a with
    | ⟨0, _⟩ =>
      show win0_0.index t (0 : Fin 2) * 2048 + 1 * r.val = win0_2.index t (0 : Fin 2) * 2048 + 1 * r.val
      omega
    | ⟨1, _⟩ =>
      show win0_0.index t (1 : Fin 2) * 64 + 1 * (q.val % 64) = (win0_2.index t (1 : Fin 2) * 128 + 1 * q.val) % 64
      omega
  have h1 : iblk m c 1 t (ix1 ⟨q.val % 64, Nat.mod_lt _ (by norm_num)⟩)
      = V m c main_arg2 (ix1 ⟨((((cfg0.win 2).blk t).view.emb (ix2 r q)) 1).val % 64, Nat.mod_lt _ (by norm_num)⟩) := by
    show V m c main_arg2 (((cfg0.win 1).blk t).view.emb (ix1 ⟨q.val % 64, Nat.mod_lt _ (by norm_num)⟩)) = _
    refine congrArg (V m c main_arg2) (funext fun a => Fin.ext ?_)
    match a with
    | ⟨0, _⟩ =>
      show win0_1.index t (0 : Fin 1) * 64 + 1 * (q.val % 64) = (win0_2.index t (1 : Fin 2) * 128 + 1 * q.val) % 64
      omega
  rw [h0, h1]
  rfl

/-- An index of the table is in point `t`'s block iff each coordinate is in the block's range on its axis. -/
theorem mem_blk2 (t : Fin cfg0.N) (i : S16384x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v8_0).slice (win0_2.rect t)).set ↔ _
  rw [View.set_slice_whole, Rect.mem_set_unit]
  exact Iff.rfl

/-- The eight blocks tile the table: row `l` is in the block of point `l / 2048`. -/
theorem cover2 (i : S16384x128.Idx) :
    ∃ t : Fin cfg0.N, (cfg0.win 2).flush t = true ∧ i ∈ ((cfg0.win 2).blk t).view.set := by
  have hi0 : (i 0).val < 16384 := (i 0).isLt
  have hi1 : (i 1).val < 128 := (i 1).isLt
  obtain ⟨t, ht⟩ := idx_onto2 ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk2]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 128 ≤ (i 1).val ∧ (i 1).val < win0_2.index t (1 : Fin 2) * 128 + 128; omega

/-- THE TABLE after the run: the cosines of every angle. -/
theorem final2 (c : Dev nD) :
    (dats m 0 c).arrAt 2 cfg0.N = Cert.Rope.kerTrig Ideal.cos (V m c main_v7) (V m c main_arg2) :=
  (dats m 0 c).arrAt_eq_of_cover 2 _ (fun t _ => flushed2_eq m c t) cover2

/-! ## Output window 3: the sines -/

/-- The stored value at row `r`, column `q` of a block: `sin` of the angle there, times the constant. -/
theorem pay3_apply (x0 : Vec Ideal S2048x64 .f32) (x1 : Vec Ideal S64 .f32) (r : Fin 2048) (q : Fin 128) :
    k0_pay3 x0 x1 (ix2 r q)
      = Ideal.sin (x0 (ix2 r ⟨q.val % 64, Nat.mod_lt _ (by norm_num)⟩) * x1 (ix1 ⟨q.val % 64, Nat.mod_lt _ (by norm_num)⟩))
          * Ideal.ofBits .f32 0x3F91BE9C#32 := by
  rw [← angle_apply x0 x1 r q]
  rfl

/-- WHAT POINT `t` WRITES BACK is block `t` of the whole table: rows `2048 t … 2048 t + 2047` of the positions go in,
    the same rows of the table come out. -/
theorem flushed3_eq (c : Dev nD) (t : Fin cfg0.N) :
    (dats m 0 c).flushed 3 t
      = ((cfg0.win 3).blk t).view.read (Elt Ideal) (Cert.Rope.kerTrig Ideal.sin (V m c main_v7) (V m c main_arg2)) := by
  show (cfg0.win 3).cut (grid0.coords t) ((dats m 0 c).after 3 t) = _
  rw [after0_3]
  unfold out0_3
  rw [View.canon_unit_zero hz2]
  simp only [View.ld_unit_zero (S := S2048x64) hz2, View.ld_unit_zero (S := S64) hz1]
  obtain ⟨e0, e1, e2, e3, e4, e5⟩ := idx_facts t
  funext j
  obtain ⟨r, q, rfl⟩ : ∃ (r : Fin 2048) (q : Fin 128), j = ix2 r q := ⟨j 0, j 1, eq_ix2 j⟩
  show k0_pay3 (iblk m c 0 t) (iblk m c 1 t) (ix2 r q)
    = Cert.Rope.kerTrig Ideal.sin (V m c main_v7) (V m c main_arg2) (((cfg0.win 3).blk t).view.emb (ix2 r q))
  refine (pay3_apply (iblk m c 0 t) (iblk m c 1 t) r q).trans ?_
  have hq : q.val < 128 := q.isLt
  have hr : r.val < 2048 := r.isLt
  have h0 : iblk m c 0 t (ix2 r ⟨q.val % 64, Nat.mod_lt _ (by norm_num)⟩)
      = V m c main_v7 (ix2 ⟨((((cfg0.win 3).blk t).view.emb (ix2 r q)) 0).val, idx2_lt0 _⟩
          ⟨((((cfg0.win 3).blk t).view.emb (ix2 r q)) 1).val % 64, Nat.mod_lt _ (by norm_num)⟩) := by
    show V m c main_v7 (((cfg0.win 0).blk t).view.emb (ix2 r ⟨q.val % 64, Nat.mod_lt _ (by norm_num)⟩)) = _
    refine congrArg (V m c main_v7) (funext fun a => Fin.ext ?_)
    match a with
    | ⟨0, _⟩ =>
      show win0_0.index t (0 : Fin 2) * 2048 + 1 * r.val = win0_3.index t (0 : Fin 2) * 2048 + 1 * r.val
      omega
    | ⟨1, _⟩ =>
      show win0_0.index t (1 : Fin 2) * 64 + 1 * (q.val % 64) = (win0_3.index t (1 : Fin 2) * 128 + 1 * q.val) % 64
      omega
  have h1 : iblk m c 1 t (ix1 ⟨q.val % 64, Nat.mod_lt _ (by norm_num)⟩)
      = V m c main_arg2 (ix1 ⟨((((cfg0.win 3).blk t).view.emb (ix2 r q)) 1).val % 64, Nat.mod_lt _ (by norm_num)⟩) := by
    show V m c main_arg2 (((cfg0.win 1).blk t).view.emb (ix1 ⟨q.val % 64, Nat.mod_lt _ (by norm_num)⟩)) = _
    refine congrArg (V m c main_arg2) (funext fun a => Fin.ext ?_)
    match a with
    | ⟨0, _⟩ =>
      show win0_1.index t (0 : Fin 1) * 64 + 1 * (q.val % 64) = (win0_3.index t (1 : Fin 2) * 128 + 1 * q.val) % 64
      omega
  rw [h0, h1]
  rfl

/-- An index of the table is in point `t`'s block iff each coordinate is in the block's range on its axis. -/
theorem mem_blk3 (t : Fin cfg0.N) (i : S16384x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v8_1).slice (win0_3.rect t)).set ↔ _
  rw [View.set_slice_whole, Rect.mem_set_unit]
  exact Iff.rfl

/-- The eight blocks tile the table: row `l` is in the block of point `l / 2048`. -/
theorem cover3 (i : S16384x128.Idx) :
    ∃ t : Fin cfg0.N, (cfg0.win 3).flush t = true ∧ i ∈ ((cfg0.win 3).blk t).view.set := by
  have hi0 : (i 0).val < 16384 := (i 0).isLt
  have hi1 : (i 1).val < 128 := (i 1).isLt
  obtain ⟨t, ht⟩ := idx_onto3 ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 128 ≤ (i 1).val ∧ (i 1).val < win0_3.index t (1 : Fin 2) * 128 + 128; omega

/-- THE TABLE after the run: the sines of every angle. -/
theorem final3 (c : Dev nD) :
    (dats m 0 c).arrAt 3 cfg0.N = Cert.Rope.kerTrig Ideal.sin (V m c main_v7) (V m c main_arg2) :=
  (dats m 0 c).arrAt_eq_of_cover 3 _ (fun t _ => flushed3_eq m c t) cover3

end Cert.KernelIdeal.Blocks

end
-- ==== Proof.LibTRef.lean ====
/-
  Contents carried to a typed reference's own buffer type and back are unchanged.

  A module-local function's operations are stated over typed references: each operation's function is moved to the
  buffers' own content types along the references' type equations, so the composed value of a chain of such
  operations carries a transport there (`toBuf`) and back (`ofBuf`) between every producer and consumer. The two
  cancel, whatever the reference.
-/
import Idealize.ShloMosaic.Lib.StableHlo

namespace Cert.Lib.TRefCasts

open Idealize.ShloMosaic Idealize.ShloMosaic.StableHlo

variable {sig : RefSig} {Val : EltTy → Type} {T : BufTy}

/-- There and back again: the identity. -/
theorem ofBuf_toBuf (x : TRef sig T) (v : T.Contents Val) : x.ofBuf (x.toBuf v) = v := by
  obtain ⟨r, h, h1, h2⟩ := x
  subst h
  rfl

/-- Back and there again: the identity. -/
theorem toBuf_ofBuf (x : TRef sig T) (v : x.ref.ty.Contents Val) : x.toBuf (x.ofBuf v) = v := by
  obtain ⟨r, h, h1, h2⟩ := x
  subst h
  rfl

end Cert.Lib.TRefCasts
-- ==== Proof.KernelHost.lean ====
/-
  What the kernel's program hands the pallas_call as its first operand: the host operations before the region — the
  remainder, the flattened table, the masked lookup, the conversion to float — leave in that buffer the looked-up
  positions `Cert.Rope.posRows` of the position table and the wavelengths, as launched.
-/
import proofs.«123444_j67980742361244_1_alg».proof.Proof.Gen.KernelIdeal.Frame
import proofs.«123444_j67980742361244_1_alg».proof.Proof.Spec
import Idealize.ShloMosaic.Lib.StableHlo.Run
import proofs.«123444_j67980742361244_1_alg».proof.Proof.LibTRef

noncomputable section

namespace Cert.KernelIdeal.HostPrefix

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

attribute [local irreducible] Host.reduce Host.gather in
set_option maxRecDepth 8192 in
set_option maxHeartbeats 1000000 in
/-- The region finds its first operand at the looked-up positions. -/
theorem v7_eq (c : Dev nD) :
    (V m c main_v7 : S16384x64.Idx → F .f32)
      = Cert.Rope.posRows (m ((c : Thread nD τ).loc main_arg1)) (m ((c : Thread nD τ).loc main_arg3)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  simp only [Cert.Lib.TRefCasts.ofBuf_toBuf]
  rfl

end Cert.KernelIdeal.HostPrefix

end
-- ==== Proof.KernelRun.lean ====
/-
  The kernel's program run, read: after the region each output table is `Cert.Rope.kerTrig` of the looked-up positions
  and the inverse frequencies (the eight blocks tile it), and the two host operations after the region only add a
  leading unit axis to each table. The argument arrays end as launched.
-/
import proofs.«123444_j67980742361244_1_alg».proof.Proof.KernelBlocks
import proofs.«123444_j67980742361244_1_alg».proof.Proof.KernelHost
import Idealize.ShloMosaic.Lib.StableHlo.Run

noncomputable section

namespace Cert.KernelIdeal.Run

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The first result: the cosine table under a new leading unit axis. -/
theorem tail_cos (c : Dev nD) :
    Pipeline.afterTail₀ cfgs (dats m) 0 (V0 m) [hostOps1] c main_v9
      = broadcastInDim S1x16384x128 ![1, 2] bcast_S16384x128_S1x16384x128_1_2 ((dats m 0 c).arrAt 2 cfg0.N) := by
  unfold Pipeline.afterTail₀
  show StableHlo.after hostOps1 _ (Proc.devRef .tc main_v9) = _
  after_results
  refine congrArg (broadcastInDim (s := S16384x128) S1x16384x128 ![1, 2] bcast_S16384x128_S1x16384x128_1_2) ?_
  exact Pipeline.withArrays_arr spec0 launch0.win.arr_inj c _ _ 2

/-- The second result: the sine table under a new leading unit axis. -/
theorem tail_sin (c : Dev nD) :
    Pipeline.afterTail₀ cfgs (dats m) 0 (V0 m) [hostOps1] c main_v10
      = broadcastInDim S1x16384x128 ![1, 2] bcast_S16384x128_S1x16384x128_1_2 ((dats m 0 c).arrAt 3 cfg0.N) := by
  unfold Pipeline.afterTail₀
  show StableHlo.after hostOps1 _ (Proc.devRef .tc main_v10) = _
  after_results
  refine congrArg (broadcastInDim (s := S16384x128) S1x16384x128 ![1, 2] bcast_S16384x128_S1x16384x128_1_2) ?_
  exact Pipeline.withArrays_arr spec0 launch0.win.arr_inj c _ _ 3

/-- Every weakly fair execution of the kernel's program terminates with the two results at the cosine and sine
    tables of the arguments' launch contents, and the arguments unchanged. -/
theorem run : θ_run defs (onTc (τ := τ) (main (F := Ideal))) ⟨m, fun _ => 0, ρ⟩ fun r => ∀ c : Dev nD,
      r.2.mem ((c.tc : Thread nD τ).loc main_v9)
        = broadcastInDim S1x16384x128 ![1, 2] bcast_S16384x128_S1x16384x128_1_2
            (Cert.Rope.kerTrig Ideal.cos (Cert.Rope.posRows (m ((c.tc : Thread nD τ).loc main_arg1)) (m ((c.tc : Thread nD τ).loc main_arg3)))
              (m ((c.tc : Thread nD τ).loc main_arg2)))
      ∧ r.2.mem ((c.tc : Thread nD τ).loc main_v10)
        = broadcastInDim S1x16384x128 ![1, 2] bcast_S16384x128_S1x16384x128_1_2
            (Cert.Rope.kerTrig Ideal.sin (Cert.Rope.posRows (m ((c.tc : Thread nD τ).loc main_arg1)) (m ((c.tc : Thread nD τ).loc main_arg3)))
              (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v9 (Pipeline.mem_restRefs_of main_v9 (by decide) (by decide))).trans ((tail_cos m c).trans (by
        rw [Blocks.final2, HostPrefix.v7_eq, V_main_arg2])),
      ((h c).2 main_v10 (Pipeline.mem_restRefs_of main_v10 (by decide) (by decide))).trans ((tail_sin m c).trans (by
        rw [Blocks.final3, HostPrefix.v7_eq, V_main_arg2])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KernelIdeal.Run

end
-- ==== Proof.RefRun.lean ====
/-
  The reference program run: its `@main` is a straight line of 64 host operations once the two outlined functions
  (the sign-corrected remainder, the masked lookup) and their selects are written out at their calls. Every weakly fair
  execution runs them in order, so each result buffer ends at the operations' composed function of the argument arrays:
  the cosine and sine tables of `Cert.Rope.refTrig`, the arguments untouched.
-/
import proofs.«123444_j67980742361244_1_alg».proof.Proof.Gen.ReferenceIdeal
import proofs.«123444_j67980742361244_1_alg».proof.Proof.Spec
import Idealize.ShloMosaic.Lib.StableHlo.Run
import Idealize.ShloMosaic.Lib.Pipeline.Regions
import Idealize.ShloMosaic.Lib.Pipeline.Frame
import proofs.«123444_j67980742361244_1_alg».proof.Proof.LibTRef

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- `@main`'s operations in order, the calls written out over their buffer records. -/
abbrev ops : List (HloOp τ sig (Elt F)) :=
  [
    unary main_arg3 main_v0 (fptosi 32 : (⟨S64, .f32⟩ : BufTy).Contents (Elt F) → (⟨S64, .i32⟩ : BufTy).Contents (Elt F)),
    nullary main_v1 (iotaInDim S16384 32 0),
    unary main_v1 main_v2 (broadcastInDim S16384x1 ![0] bcast_S16384_S16384x1_0 : (⟨S16384, .i32⟩ : BufTy).Contents (Elt F) → (⟨S16384x1, .i32⟩ : BufTy).Contents (Elt F)),
    unary main_v0 main_v3 (broadcastInDim S1x64 ![1] bcast_S64_S1x64_1 : (⟨S64, .i32⟩ : BufTy).Contents (Elt F) → (⟨S1x64, .i32⟩ : BufTy).Contents (Elt F)),
    TRef.nullary main_call0.c (constantI S_ 32 0#32),
    TRef.unary main_call0.c main_call0.v0 (broadcastInDim S1x64 ![] bcast_S_S1x64),
    TRef.binary (.of main_v3 : TRef sig ⟨S1x64, .i32⟩) main_call0.v0 main_call0.v1 (cmpi .eq),
    TRef.nullary main_call0.c_0 (constantI S_ 32 1#32),
    TRef.unary main_call0.c_0 main_call0.v2 (broadcastInDim S1x64 ![] bcast_S_S1x64),
    TRef.ternary main_call0.v1 main_call0.v2 (.of main_v3 : TRef sig ⟨S1x64, .i32⟩) main_call0.call0.v0 select,
    TRef.unary (.of main_v2 : TRef sig ⟨S16384x1, .i32⟩) main_call0.v4 (broadcastInDim S16384x64 ![0, 1] bcast_S16384x1_S16384x64_0_1),
    TRef.unary main_call0.call0.v0 main_call0.v5 (broadcastInDim S16384x64 ![0, 1] bcast_S1x64_S16384x64_0_1),
    TRef.binary main_call0.v4 main_call0.v5 main_call0.v6 Host.remsi,
    TRef.nullary main_call0.c_1 (constantI S_ 32 0#32),
    TRef.unary main_call0.c_1 main_call0.v7 (broadcastInDim S16384x64 ![] bcast_S_S16384x64),
    TRef.binary main_call0.v6 main_call0.v7 main_call0.v8 (cmpi .ne),
    TRef.nullary main_call0.c_2 (constantI S_ 32 0#32),
    TRef.unary main_call0.c_2 main_call0.v9 (broadcastInDim S16384x64 ![] bcast_S_S16384x64),
    TRef.binary main_call0.v6 main_call0.v9 main_call0.v10 (cmpi .slt),
    TRef.nullary main_call0.c_3 (constantI S_ 32 0#32),
    TRef.unary main_call0.c_3 main_call0.v11 (broadcastInDim S1x64 ![] bcast_S_S1x64),
    TRef.binary main_call0.call0.v0 main_call0.v11 main_call0.v12 (cmpi .slt),
    TRef.unary main_call0.v12 main_call0.v13 (broadcastInDim S16384x64 ![0, 1] bcast_S1x64_S16384x64_0_1),
    TRef.binary main_call0.v10 main_call0.v13 main_call0.v14 (cmpi .ne),
    TRef.binary main_call0.v14 main_call0.v8 main_call0.v15 andi,
    TRef.unary main_call0.call0.v0 main_call0.v16 (broadcastInDim S16384x64 ![0, 1] bcast_S1x64_S16384x64_0_1),
    TRef.binary main_call0.v6 main_call0.v16 main_call0.v17 addi,
    TRef.ternary main_call0.v15 main_call0.v17 main_call0.v6 main_call0.v18 select,
    TRef.nullary main_call1.c (constantI S_ 32 0#32),
    TRef.unary main_call1.c main_call1.v0 (broadcastInDim S16384x64 ![] bcast_S_S16384x64),
    TRef.binary (.of main_v4 : TRef sig ⟨S16384x64, .i32⟩) main_call1.v0 main_call1.v1 (cmpi .slt),
    TRef.nullary main_call1.c_0 (constantI S_ 32 16384#32),
    TRef.unary main_call1.c_0 main_call1.v2 (broadcastInDim S16384x64 ![] bcast_S_S16384x64),
    TRef.binary (.of main_v4 : TRef sig ⟨S16384x64, .i32⟩) main_call1.v2 main_call1.v3 addi,
    TRef.ternary main_call1.v1 main_call1.v3 (.of main_v4 : TRef sig ⟨S16384x64, .i32⟩) main_call1.call0.v0 select,
    TRef.unary main_call1.call0.v0 main_call1.v5 (broadcastInDim S16384x64x1 ![0, 1] bcast_S16384x64_S16384x64x1_0_1),
    TRef.nullary main_call1.c_1 (constantI S1 32 16383#32),
    TRef.nullary main_call1.c_2 (constantI S_ 32 0#32),
    TRef.unary main_call1.c_2 main_call1.v6 (broadcastInDim S16384x64x1 ![] bcast_S_S16384x64x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S16384x64x1 ![0, 1, 2] bcast_S1x1x1_S16384x64x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x64x1_S16384x64_d2 h_S_),
    TRef.binary (.of main_arg1 : TRef sig ⟨S1x16384, .i32⟩) main_call1.v5 main_call1.v13 (fun x i => Host.gather gather_S1x16384_S16384x64x1_S1x16384x64_0_1_n_n_1_2_11 x i),
    TRef.unary main_call1.v12 main_call1.v14 (broadcastInDim S1x16384x64 ![1, 2] bcast_S16384x64_S1x16384x64_1_2),
    TRef.nullary main_call1.c_4 (constantI S_ 32 2147483648#32),
    TRef.unary main_call1.c_4 main_call1.v15 (broadcastInDim S1x16384x64 ![] bcast_S_S1x16384x64),
    TRef.ternary main_call1.v14 main_call1.v13 main_call1.v15 main_call1.v16 select,
    unary main_v5 main_v6 (sitofp .f32 : (⟨S1x16384x64, .i32⟩ : BufTy).Contents (Elt F) → (⟨S1x16384x64, .f32⟩ : BufTy).Contents (Elt F)),
    unary main_arg2 main_v7 (broadcastInDim S1x1x64 ![2] bcast_S64_S1x1x64_2 : (⟨S64, .f32⟩ : BufTy).Contents (Elt F) → (⟨S1x1x64, .f32⟩ : BufTy).Contents (Elt F)),
    unary main_v7 main_v8 (broadcastInDim S1x16384x64 ![0, 1, 2] bcast_S1x1x64_S1x16384x64_0_1_2 : (⟨S1x1x64, .f32⟩ : BufTy).Contents (Elt F) → (⟨S1x16384x64, .f32⟩ : BufTy).Contents (Elt F)),
    binary main_v6 main_v8 main_v9 (mulf : (⟨S1x16384x64, .f32⟩ : BufTy).Contents (Elt F) → (⟨S1x16384x64, .f32⟩ : BufTy).Contents (Elt F) → (⟨S1x16384x64, .f32⟩ : BufTy).Contents (Elt F)),
    binary main_v9 main_v9 main_v10 ((fun a b => concatenate S1x16384x128 2 [⟨S1x16384x64, a⟩, ⟨S1x16384x64, b⟩] concatenates_S1x16384x64_S1x16384x64_S1x16384x128_d2) : (⟨S1x16384x64, .f32⟩ : BufTy).Contents (Elt F) → (⟨S1x16384x64, .f32⟩ : BufTy).Contents (Elt F) → (⟨S1x16384x128, .f32⟩ : BufTy).Contents (Elt F)),
    unary main_v10 main_v11 (Host.cos : (⟨S1x16384x128, .f32⟩ : BufTy).Contents (Elt F) → (⟨S1x16384x128, .f32⟩ : BufTy).Contents (Elt F)),
    nullary main_cst (constant S_ .f32 0x3F91BE9C#32),
    unary main_cst main_v12 (broadcastInDim S1x16384x128 ![] bcast_S_S1x16384x128 : (⟨S_, .f32⟩ : BufTy).Contents (Elt F) → (⟨S1x16384x128, .f32⟩ : BufTy).Contents (Elt F)),
    binary main_v11 main_v12 main_v13 (mulf : (⟨S1x16384x128, .f32⟩ : BufTy).Contents (Elt F) → (⟨S1x16384x128, .f32⟩ : BufTy).Contents (Elt F) → (⟨S1x16384x128, .f32⟩ : BufTy).Contents (Elt F)),
    unary main_v10 main_v14 (Host.sin : (⟨S1x16384x128, .f32⟩ : BufTy).Contents (Elt F) → (⟨S1x16384x128, .f32⟩ : BufTy).Contents (Elt F)),
    nullary main_cst_0 (constant S_ .f32 0x3F91BE9C#32),
    unary main_cst_0 main_v15 (broadcastInDim S1x16384x128 ![] bcast_S_S1x16384x128 : (⟨S_, .f32⟩ : BufTy).Contents (Elt F) → (⟨S1x16384x128, .f32⟩ : BufTy).Contents (Elt F)),
    binary main_v14 main_v15 main_v16 (mulf : (⟨S1x16384x128, .f32⟩ : BufTy).Contents (Elt F) → (⟨S1x16384x128, .f32⟩ : BufTy).Contents (Elt F) → (⟨S1x16384x128, .f32⟩ : BufTy).Contents (Elt F)) ]

/-- `@main` is that straight line: the functions unfolded at their calls and sequencing reassociated, by computation. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., unary_bufs_sub .., nullary_bufs_sub .., unary_bufs_sub .., binary_bufs_sub .., nullary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., unary_bufs_sub .., binary_bufs_sub .., binary_bufs_sub .., unary_bufs_sub .., nullary_bufs_sub .., unary_bufs_sub .., binary_bufs_sub .., unary_bufs_sub .., nullary_bufs_sub .., unary_bufs_sub .., binary_bufs_sub ..⟩

/-- Every weakly fair execution terminates with each TensorCore buffer at the operations' fold over the launch
    contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the fold leaves in the two result buffers and in the arguments

The line is read in two stretches: up to the 64 angles per row (`opsAngles`), then the doubling and the trigonometry
(`opsTrig`), whose two operands are both that one buffer. -/

/-- The operations up to the angles. -/
abbrev opsAngles : List (HloOp τ sig (Elt F)) :=
  [
    unary main_arg3 main_v0 (fptosi 32 : (⟨S64, .f32⟩ : BufTy).Contents (Elt F) → (⟨S64, .i32⟩ : BufTy).Contents (Elt F)),
    nullary main_v1 (iotaInDim S16384 32 0),
    unary main_v1 main_v2 (broadcastInDim S16384x1 ![0] bcast_S16384_S16384x1_0 : (⟨S16384, .i32⟩ : BufTy).Contents (Elt F) → (⟨S16384x1, .i32⟩ : BufTy).Contents (Elt F)),
    unary main_v0 main_v3 (broadcastInDim S1x64 ![1] bcast_S64_S1x64_1 : (⟨S64, .i32⟩ : BufTy).Contents (Elt F) → (⟨S1x64, .i32⟩ : BufTy).Contents (Elt F)),
    TRef.nullary main_call0.c (constantI S_ 32 0#32),
    TRef.unary main_call0.c main_call0.v0 (broadcastInDim S1x64 ![] bcast_S_S1x64),
    TRef.binary (.of main_v3 : TRef sig ⟨S1x64, .i32⟩) main_call0.v0 main_call0.v1 (cmpi .eq),
    TRef.nullary main_call0.c_0 (constantI S_ 32 1#32),
    TRef.unary main_call0.c_0 main_call0.v2 (broadcastInDim S1x64 ![] bcast_S_S1x64),
    TRef.ternary main_call0.v1 main_call0.v2 (.of main_v3 : TRef sig ⟨S1x64, .i32⟩) main_call0.call0.v0 select,
    TRef.unary (.of main_v2 : TRef sig ⟨S16384x1, .i32⟩) main_call0.v4 (broadcastInDim S16384x64 ![0, 1] bcast_S16384x1_S16384x64_0_1),
    TRef.unary main_call0.call0.v0 main_call0.v5 (broadcastInDim S16384x64 ![0, 1] bcast_S1x64_S16384x64_0_1),
    TRef.binary main_call0.v4 main_call0.v5 main_call0.v6 Host.remsi,
    TRef.nullary main_call0.c_1 (constantI S_ 32 0#32),
    TRef.unary main_call0.c_1 main_call0.v7 (broadcastInDim S16384x64 ![] bcast_S_S16384x64),
    TRef.binary main_call0.v6 main_call0.v7 main_call0.v8 (cmpi .ne),
    TRef.nullary main_call0.c_2 (constantI S_ 32 0#32),
    TRef.unary main_call0.c_2 main_call0.v9 (broadcastInDim S16384x64 ![] bcast_S_S16384x64),
    TRef.binary main_call0.v6 main_call0.v9 main_call0.v10 (cmpi .slt),
    TRef.nullary main_call0.c_3 (constantI S_ 32 0#32),
    TRef.unary main_call0.c_3 main_call0.v11 (broadcastInDim S1x64 ![] bcast_S_S1x64),
    TRef.binary main_call0.call0.v0 main_call0.v11 main_call0.v12 (cmpi .slt),
    TRef.unary main_call0.v12 main_call0.v13 (broadcastInDim S16384x64 ![0, 1] bcast_S1x64_S16384x64_0_1),
    TRef.binary main_call0.v10 main_call0.v13 main_call0.v14 (cmpi .ne),
    TRef.binary main_call0.v14 main_call0.v8 main_call0.v15 andi,
    TRef.unary main_call0.call0.v0 main_call0.v16 (broadcastInDim S16384x64 ![0, 1] bcast_S1x64_S16384x64_0_1),
    TRef.binary main_call0.v6 main_call0.v16 main_call0.v17 addi,
    TRef.ternary main_call0.v15 main_call0.v17 main_call0.v6 main_call0.v18 select,
    TRef.nullary main_call1.c (constantI S_ 32 0#32),
    TRef.unary main_call1.c main_call1.v0 (broadcastInDim S16384x64 ![] bcast_S_S16384x64),
    TRef.binary (.of main_v4 : TRef sig ⟨S16384x64, .i32⟩) main_call1.v0 main_call1.v1 (cmpi .slt),
    TRef.nullary main_call1.c_0 (constantI S_ 32 16384#32),
    TRef.unary main_call1.c_0 main_call1.v2 (broadcastInDim S16384x64 ![] bcast_S_S16384x64),
    TRef.binary (.of main_v4 : TRef sig ⟨S16384x64, .i32⟩) main_call1.v2 main_call1.v3 addi,
    TRef.ternary main_call1.v1 main_call1.v3 (.of main_v4 : TRef sig ⟨S16384x64, .i32⟩) main_call1.call0.v0 select,
    TRef.unary main_call1.call0.v0 main_call1.v5 (broadcastInDim S16384x64x1 ![0, 1] bcast_S16384x64_S16384x64x1_0_1),
    TRef.nullary main_call1.c_1 (constantI S1 32 16383#32),
    TRef.nullary main_call1.c_2 (constantI S_ 32 0#32),
    TRef.unary main_call1.c_2 main_call1.v6 (broadcastInDim S16384x64x1 ![] bcast_S_S16384x64x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S16384x64x1 ![0, 1, 2] bcast_S1x1x1_S16384x64x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x64x1_S16384x64_d2 h_S_),
    TRef.binary (.of main_arg1 : TRef sig ⟨S1x16384, .i32⟩) main_call1.v5 main_call1.v13 (fun x i => Host.gather gather_S1x16384_S16384x64x1_S1x16384x64_0_1_n_n_1_2_11 x i),
    TRef.unary main_call1.v12 main_call1.v14 (broadcastInDim S1x16384x64 ![1, 2] bcast_S16384x64_S1x16384x64_1_2),
    TRef.nullary main_call1.c_4 (constantI S_ 32 2147483648#32),
    TRef.unary main_call1.c_4 main_call1.v15 (broadcastInDim S1x16384x64 ![] bcast_S_S1x16384x64),
    TRef.ternary main_call1.v14 main_call1.v13 main_call1.v15 main_call1.v16 select,
    unary main_v5 main_v6 (sitofp .f32 : (⟨S1x16384x64, .i32⟩ : BufTy).Contents (Elt F) → (⟨S1x16384x64, .f32⟩ : BufTy).Contents (Elt F)),
    unary main_arg2 main_v7 (broadcastInDim S1x1x64 ![2] bcast_S64_S1x1x64_2 : (⟨S64, .f32⟩ : BufTy).Contents (Elt F) → (⟨S1x1x64, .f32⟩ : BufTy).Contents (Elt F)),
    unary main_v7 main_v8 (broadcastInDim S1x16384x64 ![0, 1, 2] bcast_S1x1x64_S1x16384x64_0_1_2 : (⟨S1x1x64, .f32⟩ : BufTy).Contents (Elt F) → (⟨S1x16384x64, .f32⟩ : BufTy).Contents (Elt F)),
    binary main_v6 main_v8 main_v9 (mulf : (⟨S1x16384x64, .f32⟩ : BufTy).Contents (Elt F) → (⟨S1x16384x64, .f32⟩ : BufTy).Contents (Elt F) → (⟨S1x16384x64, .f32⟩ : BufTy).Contents (Elt F)) ]

/-- The doubling, the cosine and sine, the constant. -/
abbrev opsTrig : List (HloOp τ sig (Elt F)) :=
  [
    binary main_v9 main_v9 main_v10 ((fun a b => concatenate S1x16384x128 2 [⟨S1x16384x64, a⟩, ⟨S1x16384x64, b⟩] concatenates_S1x16384x64_S1x16384x64_S1x16384x128_d2) : (⟨S1x16384x64, .f32⟩ : BufTy).Contents (Elt F) → (⟨S1x16384x64, .f32⟩ : BufTy).Contents (Elt F) → (⟨S1x16384x128, .f32⟩ : BufTy).Contents (Elt F)),
    unary main_v10 main_v11 (Host.cos : (⟨S1x16384x128, .f32⟩ : BufTy).Contents (Elt F) → (⟨S1x16384x128, .f32⟩ : BufTy).Contents (Elt F)),
    nullary main_cst (constant S_ .f32 0x3F91BE9C#32),
    unary main_cst main_v12 (broadcastInDim S1x16384x128 ![] bcast_S_S1x16384x128 : (⟨S_, .f32⟩ : BufTy).Contents (Elt F) → (⟨S1x16384x128, .f32⟩ : BufTy).Contents (Elt F)),
    binary main_v11 main_v12 main_v13 (mulf : (⟨S1x16384x128, .f32⟩ : BufTy).Contents (Elt F) → (⟨S1x16384x128, .f32⟩ : BufTy).Contents (Elt F) → (⟨S1x16384x128, .f32⟩ : BufTy).Contents (Elt F)),
    unary main_v10 main_v14 (Host.sin : (⟨S1x16384x128, .f32⟩ : BufTy).Contents (Elt F) → (⟨S1x16384x128, .f32⟩ : BufTy).Contents (Elt F)),
    nullary main_cst_0 (constant S_ .f32 0x3F91BE9C#32),
    unary main_cst_0 main_v15 (broadcastInDim S1x16384x128 ![] bcast_S_S1x16384x128 : (⟨S_, .f32⟩ : BufTy).Contents (Elt F) → (⟨S1x16384x128, .f32⟩ : BufTy).Contents (Elt F)),
    binary main_v14 main_v15 main_v16 (mulf : (⟨S1x16384x128, .f32⟩ : BufTy).Contents (Elt F) → (⟨S1x16384x128, .f32⟩ : BufTy).Contents (Elt F) → (⟨S1x16384x128, .f32⟩ : BufTy).Contents (Elt F)) ]

theorem ops_split : (ops : List (HloOp τ sig (Elt F))) = opsAngles ++ opsTrig := rfl

attribute [local irreducible] Host.reduce Host.gather in
set_option maxRecDepth 8192 in
set_option maxHeartbeats 1000000 in
/-- After the first stretch the angles' buffer holds position times inverse frequency. -/
theorem angles_eq (V : Valuation τ sig (Elt F)) :
    after opsAngles V (main_v9 : DevRef τ sig)
      = Cert.Rope.refAngles (V (main_arg1 : DevRef τ sig)) (V (main_arg2 : DevRef τ sig)) (V (main_arg3 : DevRef τ sig)) := by
  after_results_simp
  simp only [Cert.Lib.TRefCasts.ofBuf_toBuf]
  rfl

/-- The first result is the cosine table. -/
theorem out_cos (V : Valuation τ sig (Elt F)) :
    after ops V (main_v13 : DevRef τ sig)
      = Cert.Rope.refTrig Host.cos (V (main_arg1 : DevRef τ sig)) (V (main_arg2 : DevRef τ sig)) (V (main_arg3 : DevRef τ sig)) := by
  rw [ops_split, StableHlo.after_append]
  have h9 := angles_eq V
  generalize after opsAngles V = W at h9 ⊢
  after_results_simp
  rw [h9]
  rfl

/-- The second result is the sine table. -/
theorem out_sin (V : Valuation τ sig (Elt F)) :
    after ops V (main_v16 : DevRef τ sig)
      = Cert.Rope.refTrig Host.sin (V (main_arg1 : DevRef τ sig)) (V (main_arg2 : DevRef τ sig)) (V (main_arg3 : DevRef τ sig)) := by
  rw [ops_split, StableHlo.after_append]
  have h9 := angles_eq V
  generalize after opsAngles V = W at h9 ⊢
  after_results_simp
  rw [h9]
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- The reference's run, read: both tables as functions of the argument arrays, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
        = Cert.Rope.refTrig Host.cos (m ((c.tc : Thread nD τ).loc main_arg1)) (m ((c.tc : Thread nD τ).loc main_arg2)) (m ((c.tc : Thread nD τ).loc main_arg3))
      ∧ r.2.mem ((c.tc : Thread nD τ).loc main_v16)
        = Cert.Rope.refTrig Host.sin (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v13).trans (out_cos _), (h c main_v16).trans (out_sin _),
      (h c main_arg0).trans (arg0_eq _), (h c main_arg1).trans (arg1_eq _), (h c main_arg2).trans (arg2_eq _),
      (h c main_arg3).trans (arg3_eq _)⟩)
    (run_fold m ρ)

end Cert.ReferenceIdeal.RefRun

end
-- ==== Proof.Bridge.lean ====
/-
  The two programs' results are one function of the argument arrays, index by index.

  At `(z, l, q)` of a `[1, 16384, 128]` table: the kernel's table, with a leading unit axis added, reads
  `g (position (l, q mod 64) · f_{q mod 64}) · κ`; the reference's reads `g` of the doubled angles at `(z, l, q)` — the
  left copy for `q < 64`, the right copy for `q ≥ 64`, so angle `(z, l, q mod 64)`, which is position `(z, l, q mod 64)`
  times `f_{q mod 64}` — times the same `κ`. The positions agree (`posRef_apply`): both layouts look the SAME start index
  up in the table's one row — the flattened table at the clamped index is the `[1, N]` table at `(0, clamped index)` —
  under the same mask, with the same fill value. No law of the extended reals beyond these readings is used.
-/
import proofs.«123444_j67980742361244_1_alg».proof.Proof.Spec
import proofs.«123444_j67980742361244_1_alg».proof.Proof.LibTakeAxis1
import Idealize.ShloMosaic.Lib.Pipeline.Value
import Idealize.ShloMosaic.Lib.ValueLayout
import Idealize.ShloMosaic.Lib.IdealHost

noncomputable section

namespace Cert.Rope

open Idealize.ShloMosaic Idealize.ShloMosaic.ValueIdx
open Cert.ReferenceIdeal Cert.ReferenceIdeal.Gen Cert.Lib.TakeAxis1

variable {F : FTy → Type} [FloatOps F]

/-- The reference's position at `(z, l, k)` is the kernel program's at `(l, k)`. -/
theorem posRef_apply (a1 : IVec S1x16384 32) (a3 : FVec F S64 .f32) (z : Fin 1) (l : Fin 16384) (k : Fin 64) :
    posRef a1 a3 (ix3 z l k) = posRows a1 a3 (ix2 l k) := by
  unfold posRef posRows
  generalize takeStart (wrapIdx a3) = st
  generalize takeMask st = M
  rw [sitofp_apply, sitofp_apply, select_apply, select_apply]
  rw [broadcastInDim_apply ![1, 2] bcast_S16384x64_S1x16384x64_1_2 M (ix3 z l k) (ix2 l k) (fun a => by
    match a with
    | ⟨0, _⟩ => rfl
    | ⟨1, _⟩ => rfl)]
  rw [broadcastInDim_scalar_apply, broadcastInDim_scalar_apply]
  rw [gather_axis1_apply (by norm_num), gather_take_apply (by norm_num), shapeCast_1a_a_apply]
  rfl

/-- Inverse frequency `k` as the reference spreads it over the `[1, 16384, 64]` angles. -/
theorem freq_apply (a2 : FVec F S64 .f32) (z : Fin 1) (l : Fin 16384) (k : Fin 64) :
    broadcastInDim S1x16384x64 ![0, 1, 2] bcast_S1x1x64_S1x16384x64_0_1_2 (broadcastInDim S1x1x64 ![2] bcast_S64_S1x1x64_2 a2) (ix3 z l k)
      = a2 (ix1 k) := by
  rw [broadcastInDim_apply ![0, 1, 2] bcast_S1x1x64_S1x16384x64_0_1_2 _ (ix3 z l k) (ix3 (0 : Fin 1) (0 : Fin 1) k) (fun a => by
    match a with
    | ⟨0, _⟩ => rfl
    | ⟨1, _⟩ => rfl
    | ⟨2, _⟩ => rfl)]
  rw [broadcastInDim_apply ![2] bcast_S64_S1x1x64_2 a2 (ix3 (0 : Fin 1) (0 : Fin 1) k) (ix1 k) (fun a => by
    match a with
    | ⟨0, _⟩ => rfl)]

/-- THE BRIDGE. For a scalar function `g` and the host's vector form `G` of it (`G v i = g (v i)`): the kernel's
    table with its leading unit axis is the reference's table. -/
theorem table_eq (g : EReal → EReal) (G : FVec Ideal S1x16384x128 .f32 → FVec Ideal S1x16384x128 .f32)
    (hG : ∀ v i, G v i = g (v i)) (a1 : IVec S1x16384 32) (a2 a3 : FVec Ideal S64 .f32) :
    broadcastInDim S1x16384x128 ![1, 2] bcast_S16384x128_S1x16384x128_1_2 (kerTrig g (posRows a1 a3) a2)
      = refTrig G a1 a2 a3 := by
  funext j
  obtain ⟨z, l, q, rfl⟩ : ∃ (z : Fin 1) (l : Fin 16384) (q : Fin 128), j = ix3 z l q := ⟨j 0, j 1, j 2, eq_ix3 j⟩
  have hq : q.val < 128 := q.isLt
  rw [broadcastInDim_apply ![1, 2] bcast_S16384x128_S1x16384x128_1_2 _ (ix3 z l q) (ix2 l q) (fun a => by
    match a with
    | ⟨0, _⟩ => rfl
    | ⟨1, _⟩ => rfl)]
  unfold refTrig
  rw [mulf_apply, hG, broadcastInDim_scalar_apply, constant_apply]
  -- the doubled angles at column `q` are the angles at column `q mod 64`
  have hcat : ∀ fr : FVec Ideal S1x16384x64 .f32,
      concatenate S1x16384x128 2 [⟨S1x16384x64, fr⟩, ⟨S1x16384x64, fr⟩] concatenates_S1x16384x64_S1x16384x64_S1x16384x128_d2 (ix3 z l q)
        = fr (ix3 z l ⟨q.val % 64, Nat.mod_lt _ (by norm_num)⟩) := by
    intro fr
    by_cases hc : q.val < 64
    · refine (concatenate_pair_apply_left (s₁ := S1x16384x64) (s₂ := S1x16384x64) (2 : Fin 3) _ _ _ (ix3 z l q) rfl (ix3 z l (⟨q.val, hc⟩ : Fin 64) : S1x16384x64.Idx) (fun b => by
        match b with
        | ⟨0, _⟩ => rfl
        | ⟨1, _⟩ => rfl
        | ⟨2, _⟩ => rfl)).trans ?_
      have e : (⟨q.val, hc⟩ : Fin 64) = ⟨q.val % 64, Nat.mod_lt _ (by norm_num)⟩ := Fin.ext (Nat.mod_eq_of_lt hc).symm
      rw [e]
    · have hc' : q.val - 64 < 64 := by omega
      refine (concatenate_pair_apply_right (s₁ := S1x16384x64) (s₂ := S1x16384x64) (2 : Fin 3) _ _ _ (ix3 z l q) rfl rfl (ix3 z l (⟨q.val - 64, hc'⟩ : Fin 64) : S1x16384x64.Idx) (fun b hb => by
        match b with
        | ⟨0, _⟩ => rfl
        | ⟨1, _⟩ => rfl
        | ⟨2, _⟩ => exact absurd rfl hb) (by show q.val - 64 + 64 = q.val; omega)).trans ?_
      have e : (⟨q.val - 64, hc'⟩ : Fin 64) = ⟨q.val % 64, Nat.mod_lt _ (by norm_num)⟩ := Fin.ext (by show q.val - 64 = q.val % 64; omega)
      rw [e]
  rw [hcat]
  unfold refAngles
  rw [mulf_apply, posRef_apply, freq_apply]
  rfl

end Cert.Rope

end
-- ==== Proof.lean ====
/-
  Rotary-embedding tables: the kernel's program against its jnp reference, over the extended reals.

  Both programs take a position table `p` (one row of 16384 integers), 64 inverse frequencies `f` and 64 wavelengths
  `w`, and return `cos` and `sin` tables `[1, 16384, 128]` whose entry `(0, l, q)` is
  `trig (float (p[l mod w_k]) · f_k) · κ` with `k = q mod 64` and one constant `κ`. They share the integer arithmetic
  (the remainder, the wrapped and masked lookup) operation for operation; they differ in the lookup's layout, in
  computing the trigonometry block by block inside a pallas_call of eight grid points instead of on the whole array,
  and in adding the leading unit axis last instead of carrying it throughout.

  * Proof/Spec.lean — the shared integer chain and the two programs' forms of the result, as functions of the arguments.
  * Proof/RefRun.lean — the reference's run: its 64 host operations leave `Cert.Rope.refTrig`.
  * Proof/KernelHost.lean, Proof/KernelBlocks.lean, Proof/KernelRun.lean — the kernel's program: the host operations before
    the region leave the looked-up positions; the eight blocks tile each table with `Cert.Rope.kerTrig`; the two host
    operations after the region add the unit axis.
  * Proof/Bridge.lean, Proof/LibTakeAxis1.lean — the two forms are one function, index by index: the left and right copies
    of the doubled angles are both the angle at `q mod 64`, and the two lookups read the same table entry.

  The equality uses no arithmetic law of the extended reals, so the precondition (finite float inputs) is never opened.
  The ideal pass rewrote nothing, so `preserves` is `True`.
-/
import proofs.«123444_j67980742361244_1_alg».proof.Defs
import proofs.«123444_j67980742361244_1_alg».proof.Proof.Gen.Kernel
import proofs.«123444_j67980742361244_1_alg».proof.Proof.Gen.Kernel.Frame
import proofs.«123444_j67980742361244_1_alg».proof.Proof.Gen.KernelIdeal
import proofs.«123444_j67980742361244_1_alg».proof.Proof.Gen.KernelIdeal.Frame
import proofs.«123444_j67980742361244_1_alg».proof.Proof.Gen.ReferenceIdeal
import proofs.«123444_j67980742361244_1_alg».proof.Proof.Gen.Pre_finite_inputs
import proofs.«123444_j67980742361244_1_alg».proof.Proof.KernelRun
import proofs.«123444_j67980742361244_1_alg».proof.Proof.RefRun
import proofs.«123444_j67980742361244_1_alg».proof.Proof.Bridge
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ
theorem frame_pi : Cert.frame_KernelIdeal := fun m ρ _ => Cert.KernelIdeal.Gen.frame m ρ
/-- The reference's frame is its run with the results dropped. -/
theorem frame_ri : Cert.frame_ReferenceIdeal := fun m ρ _ =>
  (θ_run Cert.ReferenceIdeal.defs _ _).mono (fun _ h c => (h c).2.2) (Cert.ReferenceIdeal.RefRun.run (F := Ideal) m ρ)

theorem preserves : Cert.preserves_Kernel_KernelIdeal := trivial

/-- From memories agreeing on the arguments both programs end with the cosine and sine tables of those arguments:
    the kernel's program with `Cert.Rope.kerTrig` under a new unit axis (its run), the reference with
    `Cert.Rope.refTrig` (its run), one function by `Cert.Rope.table_eq`. -/
theorem algebraic : Cert.algebraic_KernelIdeal_ReferenceIdeal := by
  intro m ρ m' ρ' _ hagree
  refine ⟨fun c => Cert.Rope.refTrig (F := Ideal) Host.cos
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.Rope.refTrig (F := Ideal) Host.sin
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2.1.trans ?_, (h c).2.2⟩)
      (Cert.KernelIdeal.Run.run m ρ)
    · exact Cert.Rope.table_eq Ideal.cos Host.cos (fun _ _ => rfl) _ _ _
    · exact Cert.Rope.table_eq Ideal.sin Host.sin (fun _ _ => rfl) _ _ _
  · refine (θ_run Cert.ReferenceIdeal.defs _ _).mono (fun _ h c => ⟨?_, ?_, (h c).2.2⟩)
      (Cert.ReferenceIdeal.RefRun.run (F := Ideal) m' ρ')
    · rw [(h c).1, (hagree c).2.1, (hagree c).2.2.1, (hagree c).2.2.2]
    · rw [(h c).2.1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
